-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel

variable [Facts]

def fn {F : FTy → Type} [FloatOps F] (main_arg0 : FVec F S32x2048x512 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  main_v3
-- ==== Kernel.lean ====
abbrev S32x2048x512 : Shape := ⟨3, ![32, 2048, 512]⟩
abbrev S32x256x4096 : Shape := ⟨3, ![32, 256, 4096]⟩
abbrev S1x2048x512 : Shape := ⟨3, ![1, 2048, 512]⟩
abbrev S1x256x4096 : Shape := ⟨3, ![1, 256, 4096]⟩
abbrev S1x256x512 : Shape := ⟨3, ![1, 256, 512]⟩
abbrev S256x512 : Shape := ⟨2, ![256, 512]⟩
abbrev S256x256x2 : Shape := ⟨3, ![256, 256, 2]⟩
abbrev S32x1048576 : Shape := ⟨2, ![32, 1048576]⟩

abbrev nBuf : Space → Nat
  | .hbm => 3
  | .vmem => 4
  | .smem => 0
  | _ => 0

abbrev bufTy : (tb : Table) → Fin (tcTables nBuf tb) → BufTy
  | .hbm, ⟨0, _⟩ => ⟨S32x2048x512, .f32⟩
  | .hbm, ⟨1, _⟩ => ⟨S32x256x4096, .f32⟩
  | .hbm, ⟨2, _⟩ => ⟨S32x1048576, .f32⟩
  | .local _ .vmem, ⟨0, _⟩ => ⟨S1x2048x512, .f32⟩
  | .local _ .vmem, ⟨1, _⟩ => ⟨S1x2048x512, .f32⟩
  | .local _ .vmem, ⟨2, _⟩ => ⟨S1x256x4096, .f32⟩
  | .local _ .vmem, ⟨3, _⟩ => ⟨S1x256x4096, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  v1
def k0_off1 (k0_t1 : Fin k0_t1_loop.trips) : Fin 3 → Nat :=
  let c0 : Index := 0#32
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  let v2 : BitVec 32 := v1
  let v3 : Index := Scalar.indexCast v2
  let c0_1 : Index := 0#32
  ![0, v3.toNat, 0]
def k0_mult2 (k0_t1 : Fin k0_t1_loop.trips) : BitVec 32 :=
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  let v2 : BitVec 32 := v1
  let c2_i32 : BitVec 32 := 2#32
  let v9 : BitVec 32 := Scalar.muli v2 c2_i32
  v9
def k0_off2 (k0_t1 : Fin k0_t1_loop.trips) : Fin 3 → Nat :=
  let c0_2 : Index := 0#32
  let c0_3 : Index := 0#32
  let c0_i32 : BitVec 32 := 0#32
  let c1_i32 : BitVec 32 := 1#32
  let arg3 : BitVec 32 := Scf.iv c0_i32 c1_i32 k0_t1
  let c256_i32 : BitVec 32 := 256#32
  let v1 : BitVec 32 := Scalar.muli arg3 c256_i32
  let v2 : BitVec 32 := v1
  let c2_i32 : BitVec 32 := 2#32
  let v9 : BitVec 32 := Scalar.muli v2 c2_i32
  let v10 : BitVec 32 := v9
  let v11 : Index := Scalar.indexCast v10
  ![0, 0, v11.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S1x256x512 : 0 < S1x256x512.numel
  shapeCasts_S1x256x512_S256x512 : S1x256x512.ShapeCasts S256x512
  shapeCasts_S256x512_S256x256x2 : S256x512.ShapeCasts S256x256x2
  transposes_S256x256x2_p1_0_2_S256x256x2 : S256x256x2.Transposes [1, 0, 2] S256x256x2
  shapeCasts_S256x256x2_S256x512 : S256x256x2.ShapeCasts S256x512
  shapeCasts_S256x512_S1x256x512 : S256x512.ShapeCasts S1x256x512
  shapeCasts_S32x256x4096_S32x1048576 : S32x256x4096.ShapeCasts S32x1048576
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x512.size a ≤ S1x2048x512.size a
  k0_mult2_dvd : ∀ k0_t1 : Fin k0_t1_loop.trips, 512 ∣ (k0_mult2 k0_t1).toNat
  k0_off2_inb : ∀ k0_t1 : Fin k0_t1_loop.trips, ∀ a, (k0_off2 k0_t1) a + S1x256x512.size a ≤ S1x256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S32x2048x512.size a
  hwx0_0 : ∀ i : grid0.Coords, EltTy.bits .f32 = 32 ∨ (Rect.block (s := S32x2048x512) S1x2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S32x256x4096.size a
  hwx0_1 : ∀ i : grid0.Coords, EltTy.bits .f32 = 32 ∨ (Rect.block (s := S32x256x4096) S1x256x4096.size (cc0_transform_1 i) (hinb0_1 i)).WholeWords (EltTy.packing .f32)

variable [Facts₀]

abbrev win0_0 : Pipeline.Window sig grid0 :=
  Pipeline.Window.ofSpec (Memref.whole main_arg0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x2048x512 : Shape := ⟨3, ![32, 2048, 512]⟩
abbrev S32x512x2048 : Shape := ⟨3, ![32, 512, 2048]⟩
abbrev S32x256x2x2048 : Shape := ⟨4, ![32, 256, 2, 2048]⟩
abbrev S32x256x2048x2 : Shape := ⟨4, ![32, 256, 2048, 2]⟩
abbrev S32x1048576 : Shape := ⟨2, ![32, 1048576]⟩

abbrev nBuf : Space → Nat
  | .hbm => 5
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x512x2048, .f32⟩
  | .hbm, ⟨2, _⟩ => ⟨S32x256x2x2048, .f32⟩
  | .hbm, ⟨3, _⟩ => ⟨S32x256x2048x2, .f32⟩
  | .hbm, ⟨4, _⟩ => ⟨S32x1048576, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩

abbrev nD : Nat := 1
abbrev τ : Topo := Topo.v7x

variable {F : FTy → Type} [FloatOps F]

class Facts₀ : Prop where
  transposes_S32x2048x512_S32x512x2048_0_2_1 : S32x2048x512.Transposes [0, 2, 1] S32x512x2048
  shapeCasts_S32x512x2048_S32x256x2x2048 : S32x512x2048.ShapeCasts S32x256x2x2048
  transposes_S32x256x2x2048_S32x256x2048x2_0_1_3_2 : S32x256x2x2048.Transposes [0, 1, 3, 2] S32x256x2048x2
  shapeCasts_S32x256x2048x2_S32x1048576 : S32x256x2048x2.ShapeCasts S32x1048576

variable [Facts₀]

class Facts : Prop extends Facts₀ where

variable [Facts]
-- ==== Proof.Spec.lean ====
/-
  The permutation both programs realize, index by index.

  For `x : [32, 2048, 512]` write row `r` of sample `b` as 256 adjacent column PAIRS `(x[b, r, 2p], x[b, r, 2p+1])`.
  The result lists, per sample, pair-column `p` first, then the row `r`, then the member `k` of the pair:
  flat position `f = p · 4096 + 2 r + k` of sample `b` holds `x[b, r, 2p + k]`. Solving for the coordinates,
  `p = f / 4096`, `r = (f / 2) % 2048`, `k = f % 2`.

  The same rule is stated at three granularities, each as a map on indices and the function it induces on contents
  of ANY element type (nothing is computed, elements only move):
    * `flat` — the whole result `[32, 1048576]`;
    * `arr`  — the result before its last, layout-free flattening, `[32, 256, 4096]`: entry `(b, p, m)` holds
                `x[b, m / 2, 2p + m % 2]`;
    * `blk`  — one sample's slab `[1, 256, 4096]` of that array as a function of the sample's slab `[1, 2048, 512]`.
-/
import Idealize.ShloMosaic.Lib.ValueIdx

noncomputable section

namespace Cert.PairFlatten

open Idealize.ShloMosaic Idealize.ShloMosaic.ValueIdx

/-- Where flat position `(b, f)` of the result comes from: row `(f / 2) % 2048`, column `2 (f / 4096) + f % 2` of sample `b`. -/
def flatSrc (i : (⟨2, ![32, 1048576]⟩ : Shape).Idx) : (⟨3, ![32, 2048, 512]⟩ : Shape).Idx :=
  ix3 (n0 := 32) (n1 := 2048) (n2 := 512) ⟨(i 0).val, (i 0).isLt⟩ ⟨(i 1).val / 2 % 2048, Nat.mod_lt _ (by decide)⟩
    ⟨2 * ((i 1).val / 4096) + (i 1).val % 2, by have h : (i 1).val < 1048576 := (i 1).isLt; omega⟩

/-- Where entry `(b, p, m)` of the unflattened result comes from: row `m / 2`, column `2p + m % 2` of sample `b`. -/
def arrSrc (i : (⟨3, ![32, 256, 4096]⟩ : Shape).Idx) : (⟨3, ![32, 2048, 512]⟩ : Shape).Idx :=
  ix3 (n0 := 32) (n1 := 2048) (n2 := 512) ⟨(i 0).val, (i 0).isLt⟩
    ⟨(i 2).val / 2, by have h : (i 2).val < 4096 := (i 2).isLt; omega⟩
    ⟨2 * (i 1).val + (i 2).val % 2, by have h : (i 1).val < 256 := (i 1).isLt; omega⟩

/-- The same within one sample's slab. -/
def blkSrc (y : (⟨3, ![1, 256, 4096]⟩ : Shape).Idx) : (⟨3, ![1, 2048, 512]⟩ : Shape).Idx :=
  ix3 (n0 := 1) (n1 := 2048) (n2 := 512) ⟨(y 0).val, (y 0).isLt⟩
    ⟨(y 2).val / 2, by have h : (y 2).val < 4096 := (y 2).isLt; omega⟩
    ⟨2 * (y 1).val + (y 2).val % 2, by have h : (y 1).val < 256 := (y 1).isLt; omega⟩

/-- The result as a function of the argument: a pure rearrangement. -/
def flat {α : Type} (x : (⟨3, ![32, 2048, 512]⟩ : Shape).Idx → α) : (⟨2, ![32, 1048576]⟩ : Shape).Idx → α :=
  fun i => x (flatSrc i)

/-- The result before its flattening. -/
def arr {α : Type} (x : (⟨3, ![32, 2048, 512]⟩ : Shape).Idx → α) : (⟨3, ![32, 256, 4096]⟩ : Shape).Idx → α :=
  fun i => x (arrSrc i)

/-- One sample's slab of it, from that sample's slab of the argument. -/
def blk {α : Type} (x : (⟨3, ![1, 2048, 512]⟩ : Shape).Idx → α) : (⟨3, ![1, 256, 4096]⟩ : Shape).Idx → α :=
  fun y => x (blkSrc y)

end Cert.PairFlatten

end
-- ==== Proof.RefFlat.lean ====
/-
  The reference computes `flat`.

  Its four host steps each move one index to one index: swap rows with columns, split the 512 columns into 256 pairs,
  move the pair member behind the row, flatten. Followed backwards from flat position `(b, f)` they reach
  `(b, p, r, k)` with `p = f / 4096`, `r = (f / 2) % 2048`, `k = f % 2`, then `(b, p, k, r)`, then `(b, 2p + k, r)`,
  then `x[b, r, 2p + k]`.
-/
import proofs.«105831_j81887846465666_2_alg».proof.Proof.Gen.ReferenceIdeal.Read
import proofs.«105831_j81887846465666_2_alg».proof.Proof.Spec

noncomputable section

namespace Cert.PairFlatten

open Idealize.ShloMosaic Idealize.ShloMosaic.ValueIdx Cert.ReferenceIdeal Cert.ReferenceIdeal.Read

variable {F : FTy → Type} [FloatOps F]

/-- The reference's result is the rearrangement `flat` of its argument. -/
theorem ref_eq_flat (x : (⟨S32x2048x512, .f32⟩ : BufTy).Contents (Elt F)) : val_main_v3 (F := F) x = flat x := by
  funext i
  have h0 : (i 0).val < 32 := (i 0).isLt
  have h1 : (i 1).val < 1048576 := (i 1).isLt
  rw [val_main_v3_apply, val_main_v2_apply, val_main_v1_apply, val_main_v0_apply]
  unfold flat
  refine congrArg x (funext fun a => Fin.ext ?_)
  -- the four coordinates the flat position splits into
  have q0 : ((i 0).val * 1048576 + (i 1).val) / 1048576 = (i 0).val := by omega
  have q1 : ((i 0).val * 1048576 + (i 1).val) / 4096 % 256 = (i 1).val / 4096 := by omega
  have q2 : ((i 0).val * 1048576 + (i 1).val) / 2 % 2048 = (i 1).val / 2 % 2048 := by omega
  have q3 : ((i 0).val * 1048576 + (i 1).val) % 2 = (i 1).val % 2 := by omega
  match a with
  | ⟨0, _⟩ =>
    show (((((i 0).val * 1048576 + (i 1).val) / 1048576 * 256 + ((i 0).val * 1048576 + (i 1).val) / 4096 % 256) * 2
        + ((i 0).val * 1048576 + (i 1).val) % 2) * 2048 + ((i 0).val * 1048576 + (i 1).val) / 2 % 2048) / 1048576 = (i 0).val
    rw [q0, q1, q2, q3]
    omega
  | ⟨1, _⟩ =>
    show (((((i 0).val * 1048576 + (i 1).val) / 1048576 * 256 + ((i 0).val * 1048576 + (i 1).val) / 4096 % 256) * 2
        + ((i 0).val * 1048576 + (i 1).val) % 2) * 2048 + ((i 0).val * 1048576 + (i 1).val) / 2 % 2048) % 2048 = (i 1).val / 2 % 2048
    rw [q0, q1, q2, q3]
    omega
  | ⟨2, _⟩ =>
    show (((((i 0).val * 1048576 + (i 1).val) / 1048576 * 256 + ((i 0).val * 1048576 + (i 1).val) / 4096 % 256) * 2
        + ((i 0).val * 1048576 + (i 1).val) % 2) * 2048 + ((i 0).val * 1048576 + (i 1).val) / 2 % 2048) / 2048 % 512
        = 2 * ((i 1).val / 4096) + (i 1).val % 2
    rw [q0, q1, q2, q3]
    have e : ((((i 0).val * 256 + (i 1).val / 4096) * 2 + (i 1).val % 2) * 2048 + (i 1).val / 2 % 2048) / 2048
        = ((i 0).val * 256 + (i 1).val / 4096) * 2 + (i 1).val % 2 := by omega
    rw [e]
    omega

end Cert.PairFlatten

end
-- ==== Proof.Payload.lean ====
/-
  One trip's rearrangement, read at an index.

  A trip loads 256 rows `v[0, ρ, γ]` (ρ < 256, γ < 512), views each row as 256 pairs, swaps the row axis with the
  pair axis, and flattens (row, member) into one axis of length 512. Entry `(0, p, j)` of what it stores is therefore
  member `j % 2` of pair `p` of row `j / 2`: `v[0, j / 2, 2p + j % 2]`. Each of the five layout steps moves one
  index to one index; the chain below follows entry `(0, p, j)` back through them.
-/
import proofs.«105831_j81887846465666_2_alg».proof.Proof.Gen.KernelIdeal.Skeleton
import Idealize.ShloMosaic.Lib.Pipeline.Value
import Idealize.ShloMosaic.Lib.ValueIdx

noncomputable section

namespace Cert.PairFlatten

open Idealize.ShloMosaic Idealize.ShloMosaic.ValueIdx Cert.KernelIdeal Cert.KernelIdeal.Gen

variable {F : FTy → Type} [FloatOps F]

/-- Entry `(0, p, j)` of a trip's stored value is entry `(0, j / 2, 2p + j % 2)` of the rows it loaded. -/
theorem pay_apply (v : Vec F S1x256x512 .f32) (p : Fin 256) (j : Fin 512) (z : Fin 1) :
    k0_pay1 v (ix3 z p j)
      = v (ix3 z (⟨j.val / 2, by have := j.isLt; omega⟩ : Fin 256) (⟨2 * p.val + j.val % 2, by have := p.isLt; omega⟩ : Fin 512)) := by
  have hp := p.isLt
  have hj := j.isLt
  have hz : z.val = 0 := by have := z.isLt; omega
  unfold k0_pay1
  -- [256, 512] → [1, 256, 512]: the unit axis carries no position
  refine (shapeCast_apply _ _ _ (ix2 p j) ?_).trans ?_
  · rw [Shape.rowMajor_val_two, Shape.rowMajor_val_three]
    show p.val * 512 + j.val = (z.val * 256 + p.val) * 512 + j.val
    omega
  -- [256, 256, 2] → [256, 512]: position j of a flattened (row, member) pair is row j / 2, member j % 2
  refine (shapeCast_apply _ _ _ (ix3 p (⟨j.val / 2, by omega⟩ : Fin 256) (⟨j.val % 2, by omega⟩ : Fin 2)) ?_).trans ?_
  · rw [Shape.rowMajor_val_two, Shape.rowMajor_val_three]
    show (p.val * 256 + j.val / 2) * 2 + j.val % 2 = p.val * 512 + j.val
    omega
  -- the swap of the two leading axes
  refine (transpose_apply _ _ _ _ (ix3 (⟨j.val / 2, by omega⟩ : Fin 256) p (⟨j.val % 2, by omega⟩ : Fin 2)) (fun b => match b with
    | ⟨0, _⟩ => rfl
    | ⟨1, _⟩ => rfl
    | ⟨2, _⟩ => rfl)).trans ?_
  -- [256, 512] → [256, 256, 2]: member k of pair p of a row is its column 2p + k
  refine (shapeCast_apply _ _ _ (ix2 (⟨j.val / 2, by omega⟩ : Fin 256) (⟨2 * p.val + j.val % 2, by omega⟩ : Fin 512)) ?_).trans ?_
  · rw [Shape.rowMajor_val_two, Shape.rowMajor_val_three]
    show j.val / 2 * 512 + (2 * p.val + j.val % 2) = (j.val / 2 * 256 + p.val) * 2 + j.val % 2
    omega
  -- [1, 256, 512] → [256, 512]
  refine shapeCast_apply _ _ _ _ ?_
  rw [Shape.rowMajor_val_two, Shape.rowMajor_val_three]
  show (z.val * 256 + j.val / 2) * 512 + (2 * p.val + j.val % 2) = j.val / 2 * 512 + (2 * p.val + j.val % 2)
  omega

end Cert.PairFlatten

end
-- ==== Proof.Pieces.lean ====
/-
  What the kernel body leaves in one sample's output slab.

  The body makes eight trips. Trip `k` loads rows `256k … 256k + 255` of the sample's slab `x`, rearranges them
  (Payload.lean) and stores the result into columns `512k … 512k + 511` of the output slab. Entry `(0, p, j)` of that
  store lands at `(0, p, 512k + j)` and holds `x[0, 256k + j / 2, 2p + j % 2]`; since `(512k + j) / 2 = 256k + j / 2`
  and `(512k + j) % 2 = j % 2`, this is `blk x` at the landing index. So EVERY store, of every trip, is a restriction
  of the one function `blk x`, and as the eight column ranges cover the slab, the slab ends holding `blk x`.
-/
import proofs.«105831_j81887846465666_2_alg».proof.Proof.Gen.KernelIdeal.Frame
import proofs.«105831_j81887846465666_2_alg».proof.Proof.Payload
import proofs.«105831_j81887846465666_2_alg».proof.Proof.Spec

set_option maxRecDepth 16384

noncomputable section

namespace Cert.PairFlatten

open Idealize.ShloMosaic Idealize.ShloMosaic.TcCoe Idealize.ShloMosaic.ValueIdx Idealize.SL.Sem
open Cert.KernelIdeal Cert.KernelIdeal.Gen

variable {F : FTy → Type} [FloatOps F]

/-- Trip `k`'s one store, as a restriction of `blk x`: its entry `(z, p, j)` is `blk x` where the store puts it. -/
theorem trip_store_apply (k : Fin k0_t1_loop.trips) (x : Vec F S1x2048x512 .f32) (z : Fin 1) (p : Fin 256) (j : Fin 512) :
    k0_pay1 (View.ld x (Rect.unit (s := S1x2048x512) (k0_off1 k) S1x256x512.size (k0_off1_inb k))) (ix3 z p j)
      = blk x ((Rect.unit (s := S1x256x4096) (k0_off2 k) S1x256x512.size (k0_off2_inb k)).emb (ix3 z p j)) := by
  have hj := j.isLt
  have hp := p.isLt
  refine (pay_apply _ p j z).trans ?_
  unfold blk
  show x _ = x _
  refine congrArg x (funext fun a => Fin.ext ?_)
  match a with
  | ⟨0, _⟩ =>
    show (k0_off1 k) 0 + 1 * z.val = (k0_off2 k) 0 + 1 * z.val
    rw [k0_off1_eq k, k0_off2_eq k]; rfl
  | ⟨1, _⟩ =>
    show (k0_off1 k) 1 + 1 * (j.val / 2) = ((k0_off2 k) 2 + 1 * j.val) / 2
    rw [k0_off1_eq k, k0_off2_eq k]
    show 256 * k.val + 1 * (j.val / 2) = (512 * k.val + 1 * j.val) / 2
    omega
  | ⟨2, _⟩ =>
    show (k0_off1 k) 2 + 1 * (2 * p.val + j.val % 2) = 2 * ((k0_off2 k) 1 + 1 * p.val) + ((k0_off2 k) 2 + 1 * j.val) % 2
    rw [k0_off1_eq k, k0_off2_eq k]
    show 0 + 1 * (2 * p.val + j.val % 2) = 2 * (0 + 1 * p.val) + (512 * k.val + 1 * j.val) % 2
    omega

variable (𝒱 : Variants) (c : Dev nD) (bd : Option 𝒱.V) (i : grid0.Coords)
  (arg1 : Memref sig .tc .vmem S1x2048x512 .f32) (harg1 : arg1.IsWhole)
  (arg2 : Memref sig .tc .vmem S1x256x4096 .f32) (harg2 : arg2.IsWhole)

/-- The stores of one trip (there is one) restrict `blk x`, when the input slab reads `x`. -/
theorem trip_restricts (x : Vec F S1x2048x512 .f32) (k : Fin k0_t1_loop.trips) :
    ∀ q ∈ tripL_k0_t1 (F := F) 𝒱 c bd i arg1 harg1 arg2 harg2 (harg1.unread x) k,
      ∀ y : q.1.shape.Idx, q.2 y = blk x (q.1.emb y) := by
  intro q hq
  have hL : tripL_k0_t1 (F := F) 𝒱 c bd i arg1 harg1 arg2 harg2 (harg1.unread x) k
      = [⟨Rect.unit (s := S1x256x4096) (k0_off2 k) S1x256x512.size (k0_off2_inb k),
          k0_pay1 (View.ld x (Rect.unit (s := S1x2048x512) (k0_off1 k) S1x256x512.size (k0_off1_inb k)))⟩] := by
    unfold tripL_k0_t1 trip_k0_t1
    dsimp only
    rw [View.readAt_eq_ld, harg1.read_unread]
  rw [hL] at hq
  obtain rfl := List.mem_singleton.mp hq
  intro y
  obtain ⟨z, p, j, rfl⟩ : ∃ (z : Fin 1) (p : Fin 256) (j : Fin 512), y = ix3 z p j := ⟨y 0, y 1, y 2, eq_ix3 y⟩
  exact trip_store_apply k x z p j

/-- So do the stores of the trips before the `n`-th, by induction on `n`. -/
theorem stores_restrict (x : Vec F S1x2048x512 .f32) :
    ∀ n : ℕ, ∀ q ∈ pb_k0_t1 (F := F) 𝒱 c bd i arg1 harg1 arg2 harg2 (harg1.unread x) n,
      ∀ y : q.1.shape.Idx, q.2 y = blk x (q.1.emb y)
  | 0 => fun q hq => absurd hq (by rw [pb_k0_t1.eq_1]; exact List.not_mem_nil)
  | n + 1 => fun q hq => by
    rw [pb_k0_t1.eq_2] at hq
    unfold pb_k0_t1Step at hq
    split at hq
    · rename_i h
      rcases List.mem_append.mp hq with h' | h'
      · exact trip_restricts 𝒱 c bd i arg1 harg1 arg2 harg2 x ⟨n, h⟩ q h'
      · exact stores_restrict x n q h'
    · exact stores_restrict x n q hq

/-- After the body, the output slab holds `blk` of the input slab. -/
theorem out_eq_blk (x : Vec F S1x2048x512 .f32) : out0_A_1 c i arg1 harg1 arg2 harg2 x = blk x := by
  funext y
  unfold out0_A_1
  refine View.read_writes_apply_of_pieces _ _ (blk x) _ ?_ y (cover0_A_1 c i arg1 harg1 arg2 harg2 x y)
  have hL : (kernelRun0_A c i arg1 harg1 arg2 harg2 x).1
      = pb_k0_t1 (F := F) Variants.none c none i arg1 harg1 arg2 harg2 (harg1.unread x) k0_t1_loop.trips := by
    unfold kernelRun0_A
    rfl
  rw [hL]
  exact stores_restrict Variants.none c none i arg1 harg1 arg2 harg2 x _

end Cert.PairFlatten

end
-- ==== Proof.Blocks.lean ====
/-
  From one sample's slab to the whole array.

  Grid point `t` (one per sample) is handed slab `t` of the argument — rows and columns whole — and writes back slab
  `t` of the `[32, 256, 4096]` result. Since the body leaves `blk` of its input slab (Pieces.lean), and `blk` of slab
  `t` of `x` is slab `t` of `arr x` (the rule `(p, m) ↦ (m / 2, 2p + m % 2)` never mixes samples), what point `t`
  writes back is slab `t` of `arr x`. The 32 slabs cover the array — entry `(b, p, m)` lies in slab `b` — so the array
  ends holding `arr x`.
-/
import proofs.«105831_j81887846465666_2_alg».proof.Proof.Pieces
import Idealize.ShloMosaic.Lib.Pipeline.Value

set_option maxRecDepth 16384

noncomputable section

namespace Cert.PairFlatten

open Idealize.ShloMosaic Idealize.ShloMosaic.TcCoe Idealize.ShloMosaic.ValueIdx Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The two windows' block numbers at point `t`: slab `t` on the sample axis, the other two axes whole. -/
theorem slab_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- What point `t` writes back is slab `t` of `arr` of the argument array. -/
theorem flushed_eq (c : Dev nD) (t : Fin cfg0.N) :
    (dats m 0 c).flushed 1 t = ((cfg0.win 1).blk t).view.read (Elt F) (arr (V m c main_arg0)) := by
  show (cfg0.win 1).cut (grid0.coords t) ((dats m 0 c).after 1 t) = _
  rw [after0_1]
  unfold outsAt0
  rw [out_eq_blk]
  obtain ⟨e0, e1, e2, e3, e4, e5⟩ := slab_index t
  funext y
  have hy1 : (y 1).val < 256 := (y 1).isLt
  have hy2 : (y 2).val < 4096 := (y 2).isLt
  show V m c main_arg0 (((cfg0.win 0).blk t).view.emb (blkSrc y)) = V m c main_arg0 (arrSrc (((cfg0.win 1).blk t).view.emb y))
  refine congrArg (V m c main_arg0) (funext fun a => Fin.ext ?_)
  match a with
  | ⟨0, _⟩ =>
    show win0_0.index t (0 : Fin 3) * 1 + 1 * (y 0).val = win0_1.index t (0 : Fin 3) * 1 + 1 * (y 0).val
    omega
  | ⟨1, _⟩ =>
    show win0_0.index t (1 : Fin 3) * 2048 + 1 * ((y 2).val / 2) = (win0_1.index t (2 : Fin 3) * 4096 + 1 * (y 2).val) / 2
    omega
  | ⟨2, _⟩ =>
    show win0_0.index t (2 : Fin 3) * 512 + 1 * (2 * (y 1).val + (y 2).val % 2)
        = 2 * (win0_1.index t (1 : Fin 3) * 256 + 1 * (y 1).val) + (win0_1.index t (2 : Fin 3) * 4096 + 1 * (y 2).val) % 2
    omega

/-- An entry of the array is in point `t`'s slab iff each coordinate is in the slab's range on its axis. -/
theorem mem_slab (t : Fin cfg0.N) (i : S32x256x4096.Idx) :
    i ∈ ((cfg0.win 1).blk t).view.set ↔ ∀ a : Fin 3, win0_1.index t a * S1x256x4096.size a ≤ (i a).val
      ∧ (i a).val < win0_1.index t a * S1x256x4096.size a + S1x256x4096.size a := by
  show i ∈ ((View.whole main_v0).slice (win0_1.rect t)).set ↔ _
  rw [View.set_slice_whole, Rect.mem_set_unit]
  exact Iff.rfl

/-- Entry `(b, p, m)` lies in the slab point `b` writes back. -/
theorem slabs_cover (i : S32x256x4096.Idx) :
    ∃ t : Fin cfg0.N, (cfg0.win 1).flush t = true ∧ i ∈ ((cfg0.win 1).blk t).view.set := by
  have hN : cfg0.N = 32 := N_0
  have h0 : (i 0).val < 32 := (i 0).isLt
  have h1 : (i 1).val < 256 := (i 1).isLt
  have h2 : (i 2).val < 4096 := (i 2).isLt
  have ht : (i 0).val < cfg0.N := by omega
  refine ⟨⟨(i 0).val, ht⟩, flush0_1 _, ?_⟩
  rw [mem_slab]
  obtain ⟨-, -, -, e3, e4, e5⟩ := slab_index ⟨(i 0).val, ht⟩
  replace e3 : win0_1.index ⟨(i 0).val, ht⟩ (0 : Fin 3) = (i 0).val := e3
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    rw [e3]; omega
  | ⟨1, _⟩ =>
    show win0_1.index ⟨(i 0).val, _⟩ (1 : Fin 3) * 256 ≤ (i 1).val ∧ (i 1).val < win0_1.index ⟨(i 0).val, _⟩ (1 : Fin 3) * 256 + 256
    rw [e4]; omega
  | ⟨2, _⟩ =>
    show win0_1.index ⟨(i 0).val, _⟩ (2 : Fin 3) * 4096 ≤ (i 2).val ∧ (i 2).val < win0_1.index ⟨(i 0).val, _⟩ (2 : Fin 3) * 4096 + 4096
    rw [e5]; omega

/-- The result array of the region ends holding `arr` of the argument array. -/
theorem final_arr (c : Dev nD) : (dats m 0 c).arrAt 1 cfg0.N = arr (V m c main_arg0) :=
  (dats m 0 c).arrAt_eq_of_cover 1 (arr (V m c main_arg0)) (fun t _ => flushed_eq m c t) slabs_cover

end Cert.PairFlatten

end
-- ==== Proof.KernelRun.lean ====
/-
  The kernel's run, read: its result is `flat` of its argument.

  After the region the program flattens the `[32, 256, 4096]` array into `[32, 1048576]` without moving anything: flat
  position `f` of sample `b` is entry `(b, f / 4096, f % 4096)`. With the array holding `arr x` (Blocks.lean) that entry
  is `x[b, (f % 4096) / 2, 2 (f / 4096) + (f % 4096) % 2]`, and `(f % 4096) / 2 = (f / 2) % 2048`,
  `(f % 4096) % 2 = f % 2`: it is `flat x` at `(b, f)`.
-/
import proofs.«105831_j81887846465666_2_alg».proof.Proof.Blocks
import Idealize.ShloMosaic.Lib.StableHlo.Run

set_option maxRecDepth 16384

noncomputable section

namespace Cert.PairFlatten

open Idealize.ShloMosaic Idealize.ShloMosaic.TcCoe Idealize.ShloMosaic.ValueIdx Idealize.SL.Sem
open Idealize.ShloMosaic.StableHlo
open Cert.KernelIdeal Cert.KernelIdeal.Gen

variable {F : FTy → Type} [FloatOps F]
variable (m : (ℓ : Loc nD τ sig) → Buf (Elt F) ℓ) (ρ : Dev nD → PrngReg)

/-- Flattening `arr x` gives `flat x`. -/
theorem flatten_arr {α : Type} (x : S32x2048x512.Idx → α) (h : S32x256x4096.ShapeCasts S32x1048576) :
    shapeCast S32x1048576 (arr x) h = flat x := by
  funext i
  have h0 : (i 0).val < 32 := (i 0).isLt
  have h1 : (i 1).val < 1048576 := (i 1).isLt
  refine (shapeCast_apply _ _ i (ix3 (n0 := 32) (n1 := 256) (n2 := 4096) ⟨(i 0).val, h0⟩ ⟨(i 1).val / 4096, by omega⟩
    ⟨(i 1).val % 4096, Nat.mod_lt _ (by decide)⟩) ?_).trans ?_
  · rw [Shape.rowMajor_val_two, Shape.rowMajor_val_three]
    show ((i 0).val * 256 + (i 1).val / 4096) * 4096 + (i 1).val % 4096 = (i 0).val * 1048576 + (i 1).val
    omega
  unfold arr flat
  refine congrArg x (funext fun a => Fin.ext ?_)
  match a with
  | ⟨0, _⟩ => rfl
  | ⟨1, _⟩ =>
    show (i 1).val % 4096 / 2 = (i 1).val / 2 % 2048
    omega
  | ⟨2, _⟩ =>
    show 2 * ((i 1).val / 4096) + (i 1).val % 4096 % 2 = 2 * ((i 1).val / 4096) + (i 1).val % 2
    omega

/-- What the line after the region leaves in the result buffer: `flat` of the argument. -/
theorem tail_eq (c : Dev nD) :
    Pipeline.afterTail₀ cfgs (dats m) 0 (V0 m) [hostOps1] c main_v1 = flat (m ((c : Thread nD τ).loc main_arg0)) := by
  unfold Pipeline.afterTail₀
  show StableHlo.after hostOps1 _ (Proc.devRef .tc main_v1) = _
  after_results
  show shapeCast S32x1048576 (Pipeline.withArrays spec0 c (V0 m c) (fun w => (dats m 0 c).arrAt w cfg0.N) (Proc.devRef .tc main_v0))
      shapeCasts_S32x256x4096_S32x1048576 = _
  rw [show Pipeline.withArrays spec0 c (V0 m c) (fun w => (dats m 0 c).arrAt w cfg0.N) (Proc.devRef .tc main_v0)
      = arr (V m c main_arg0) from (Pipeline.withArrays_arr spec0 launch0.win.arr_inj c _ _ 1).trans (final_arr m c)]
  rw [flatten_arr, V_main_arg0]

/-- Every weakly fair execution of the kernel program terminates with the result buffer at `flat` of the argument
    and the argument unchanged. -/
theorem run : θ_run defs (onTc (τ := τ) (main (F := F))) ⟨m, fun _ => 0, ρ⟩ fun r => ∀ c : Dev nD,
      r.2.mem ((c.tc : Thread nD τ).loc main_v1) = flat (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (fun w => by fin_cases w <;> decide))).trans (tail_eq m c),
       ((h c).1 0).trans (((dats m 0 c).arrAt_in 0 rfl _).trans ((A_eq m c 0).trans (V_main_arg0 m c)))⟩)
    (run_main m ρ)

end Cert.PairFlatten

end
-- ==== Proof.lean ====
/-
  A pair-preserving flatten: kernel against reference, over the extended reals.

  Both programs rearrange `x : [32, 2048, 512]` into `[32, 1048576]` and compute nothing. Reading each row as 256
  adjacent column pairs, the result lists — per sample — pair-column `p`, then row `r`, then pair member `k`:
  position `p · 4096 + 2r + k` holds `x[b, r, 2p + k]` (Spec.lean: `flat`).

    * The reference reaches this by two axis swaps around a split of the columns into pairs (RefFlat.lean).
    * The kernel handles one sample per grid point; within it, eight trips each take 256 rows, swap the row axis
      with the pair axis and store 512 columns of the `[256, 4096]` slab (Payload.lean, Pieces.lean); the slabs tile a
      `[32, 256, 4096]` array (Blocks.lean), which the program then flattens in place (KernelRun.lean).

  Elements are only moved, so the equality holds for any contents, infinite ones included: the finiteness of the
  inputs is never used. No operation was rewritten between the kernel and its idealization, so that conjunct is
  trivial; the three frame conjuncts are the generated frame runs (the reference's with its result dropped).
-/
import proofs.«105831_j81887846465666_2_alg».proof.Defs
import proofs.«105831_j81887846465666_2_alg».proof.Proof.Gen.Kernel
import proofs.«105831_j81887846465666_2_alg».proof.Proof.Gen.Kernel.Skeleton
import proofs.«105831_j81887846465666_2_alg».proof.Proof.Gen.Kernel.Loops
import proofs.«105831_j81887846465666_2_alg».proof.Proof.Gen.Kernel.Launch
import proofs.«105831_j81887846465666_2_alg».proof.Proof.Gen.Kernel.Points
import proofs.«105831_j81887846465666_2_alg».proof.Proof.Gen.Kernel.Frame
import proofs.«105831_j81887846465666_2_alg».proof.Proof.Gen.KernelIdeal
import proofs.«105831_j81887846465666_2_alg».proof.Proof.Gen.KernelIdeal.Skeleton
import proofs.«105831_j81887846465666_2_alg».proof.Proof.Gen.KernelIdeal.Loops
import proofs.«105831_j81887846465666_2_alg».proof.Proof.Gen.KernelIdeal.Launch
import proofs.«105831_j81887846465666_2_alg».proof.Proof.Gen.KernelIdeal.Points
import proofs.«105831_j81887846465666_2_alg».proof.Proof.Gen.KernelIdeal.Frame
import proofs.«105831_j81887846465666_2_alg».proof.Proof.Gen.ReferenceIdeal
import proofs.«105831_j81887846465666_2_alg».proof.Proof.Gen.Pre_finite_inputs
import proofs.«105831_j81887846465666_2_alg».proof.Proof.Gen.ReferenceIdeal.Run
import proofs.«105831_j81887846465666_2_alg».proof.Proof.Gen.ReferenceIdeal.Read
import proofs.«105831_j81887846465666_2_alg».proof.Proof.RefFlat
import proofs.«105831_j81887846465666_2_alg».proof.Proof.KernelRun
import Idealize.ShloMosaic.Adequacy
import Idealize.ShloMosaic.Init

noncomputable section

namespace Cert.Proof

open Idealize.ShloMosaic Idealize.SL.Sem Cert.Kernel

/-- Both idealized programs end with `flat` of the argument they share. -/
theorem algebraic : Cert.algebraic_KernelIdeal_ReferenceIdeal := by
  intro m ρ m' ρ' _ hagree
  refine ⟨fun c => Cert.PairFlatten.flat (m ((c.tc : Thread Cert.KernelIdeal.nD Cert.KernelIdeal.τ).loc Cert.KernelIdeal.main_arg0)),
    Cert.PairFlatten.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.PairFlatten.ref_eq_flat, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
